-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v65)) (v1 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_v64) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S2x524288 : Shape := ⟨2, ![2, 524288]⟩
abbrev S512x64 : Shape := ⟨2, ![512, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S16384x512 .f32) (main_arg1 : IVec S2x524288 32) (main_arg2 : FVec F S512x64 .f32) (main_arg3 : FVec F S64 .f32) (main_arg4 : FVec F S64x32 .f32) (main_arg5 : FVec F S32 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S512x64 .f32 := Host.absf main_arg2
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S16384x512 : Shape := ⟨2, ![16384, 512]⟩
abbrev S2x524288 : Shape := ⟨2, ![2, 524288]⟩
abbrev S512x64 : Shape := ⟨2, ![512, 64]⟩
abbrev S64 : Shape := ⟨1, ![64]⟩
abbrev S64x32 : Shape := ⟨2, ![64, 32]⟩
abbrev S32 : Shape := ⟨1, ![32]⟩
abbrev S16384 : Shape := ⟨1, ![16384]⟩
abbrev S1x524288 : Shape := ⟨2, ![1, 524288]⟩
abbrev S524288 : Shape := ⟨1, ![524288]⟩
abbrev S540672 : Shape := ⟨1, ![540672]⟩
abbrev S_ : Shape := ⟨0, ![]⟩
abbrev S540672x1 : Shape := ⟨2, ![540672, 1]⟩
abbrev S16384x64 : Shape := ⟨2, ![16384, 64]⟩
abbrev S540672x64 : Shape := ⟨2, ![540672, 64]⟩
abbrev S1x64 : Shape := ⟨2, ![1, 64]⟩
abbrev S16384x32 : Shape := ⟨2, ![16384, 32]⟩
abbrev S540672x32 : Shape := ⟨2, ![540672, 32]⟩
abbrev S1x32 : Shape := ⟨2, ![1, 32]⟩
abbrev S16384x16384 : Shape := ⟨2, ![16384, 16384]⟩
abbrev S1024x32 : Shape := ⟨2, ![1024, 32]⟩
abbrev S2048x32 : Shape := ⟨2, ![2048, 32]⟩
abbrev S1024x2048 : Shape := ⟨2, ![1024, 2048]⟩

abbrev nBuf : Space → Nat
  | .hbm => 90
  | .vmem => 6
  | .smem => 0
  | _ => 0

abbrev bufTy : (tb : Table) → Fin (tcTables nBuf tb) → BufTy
  | .hbm, ⟨0, _⟩ => ⟨S16384x512, .f32⟩
  | .hbm, ⟨1, _⟩ => ⟨S2x524288, .i32⟩
  | .hbm, ⟨2, _⟩ => ⟨S512x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S16384, .i32⟩
  | .hbm, ⟨7, _⟩ => ⟨S1x524288, .i32⟩
  | .hbm, ⟨8, _⟩ => ⟨S524288, .i32⟩
  | .hbm, ⟨9, _⟩ => ⟨S540672, .i32⟩
  | .hbm, ⟨10, _⟩ => ⟨S1x524288, .i32⟩
  | .hbm, ⟨11, _⟩ => ⟨S524288, .i32⟩
  | .hbm, ⟨12, _⟩ => ⟨S540672, .i32⟩
  | .hbm, ⟨13, _⟩ => ⟨S_, .f32⟩
  | .hbm, ⟨14, _⟩ => ⟨S540672, .f32⟩
  | .hbm, ⟨15, _⟩ => ⟨S_, .f32⟩
  | .hbm, ⟨16, _⟩ => ⟨S16384, .f32⟩
  | .hbm, ⟨17, _⟩ => ⟨S540672x1, .i32⟩
  | .hbm, ⟨18, _⟩ => ⟨S16384, .f32⟩
  | .hbm, ⟨19, _⟩ => ⟨S_, .f32⟩
  | .hbm, ⟨20, _⟩ => ⟨S16384, .f32⟩
  | .hbm, ⟨21, _⟩ => ⟨S16384, .i1⟩
  | .hbm, ⟨22, _⟩ => ⟨S16384, .f32⟩
  | .hbm, ⟨23, _⟩ => ⟨S_, .f32⟩
  | .hbm, ⟨24, _⟩ => ⟨S_, .f32⟩
  | .hbm, ⟨25, _⟩ => ⟨S16384, .f32⟩
  | .hbm, ⟨26, _⟩ => ⟨S16384, .f32⟩
  | .hbm, ⟨27, _⟩ => ⟨S_, .i32⟩
  | .hbm, ⟨28, _⟩ => ⟨S540672, .i32⟩
  | .hbm, ⟨29, _⟩ => ⟨S540672, .i1⟩
  | .hbm, ⟨30, _⟩ => ⟨S_, .i32⟩
  | .hbm, ⟨31, _⟩ => ⟨S540672, .i32⟩
  | .hbm, ⟨32, _⟩ => ⟨S540672, .i32⟩
  | .hbm, ⟨33, _⟩ => ⟨S540672, .i32⟩
  | .hbm, ⟨34, _⟩ => ⟨S540672x1, .i32⟩
  | .hbm, ⟨35, _⟩ => ⟨S540672, .f32⟩
  | .hbm, ⟨36, _⟩ => ⟨S_, .i32⟩
  | .hbm, ⟨37, _⟩ => ⟨S540672, .i32⟩
  | .hbm, ⟨38, _⟩ => ⟨S540672, .i1⟩
  | .hbm, ⟨39, _⟩ => ⟨S_, .i32⟩
  | .hbm, ⟨40, _⟩ => ⟨S540672, .i32⟩
  | .hbm, ⟨41, _⟩ => ⟨S540672, .i32⟩
  | .hbm, ⟨42, _⟩ => ⟨S540672, .i32⟩
  | .hbm, ⟨43, _⟩ => ⟨S540672x1, .i32⟩
  | .hbm, ⟨44, _⟩ => ⟨S540672, .f32⟩
  | .hbm, ⟨45, _⟩ => ⟨S540672, .f32⟩
  | .hbm, ⟨46, _⟩ => ⟨S16384x64, .f32⟩
  | .hbm, ⟨47, _⟩ => ⟨S_, .i32⟩
  | .hbm, ⟨48, _⟩ => ⟨S540672, .i32⟩
  | .hbm, ⟨49, _⟩ => ⟨S540672, .i1⟩
  | .hbm, ⟨50, _⟩ => ⟨S_, .i32⟩
  | .hbm, ⟨51, _⟩ => ⟨S540672, .i32⟩
  | .hbm, ⟨52, _⟩ => ⟨S540672, .i32⟩
  | .hbm, ⟨53, _⟩ => ⟨S540672, .i32⟩
  | .hbm, ⟨54, _⟩ => ⟨S540672x1, .i32⟩
  | .hbm, ⟨55, _⟩ => ⟨S540672x64, .f32⟩
  | .hbm, ⟨56, _⟩ => ⟨S540672x1, .f32⟩
  | .hbm, ⟨57, _⟩ => ⟨S540672x64, .f32⟩
  | .hbm, ⟨58, _⟩ => ⟨S540672x64, .f32⟩
  | .hbm, ⟨59, _⟩ => ⟨S_, .f32⟩
  | .hbm, ⟨60, _⟩ => ⟨S16384x64, .f32⟩
  | .hbm, ⟨61, _⟩ => ⟨S540672x1, .i32⟩
  | .hbm, ⟨62, _⟩ => ⟨S16384x64, .f32⟩
  | .hbm, ⟨63, _⟩ => ⟨S1x64, .f32⟩
  | .hbm, ⟨64, _⟩ => ⟨S16384x64, .f32⟩
  | .hbm, ⟨65, _⟩ => ⟨S16384x64, .f32⟩
  | .hbm, ⟨66, _⟩ => ⟨S_, .f32⟩
  | .hbm, ⟨67, _⟩ => ⟨S16384x64, .f32⟩
  | .hbm, ⟨68, _⟩ => ⟨S16384x64, .f32⟩
  | .hbm, ⟨69, _⟩ => ⟨S16384x32, .f32⟩
  | .hbm, ⟨70, _⟩ => ⟨S_, .i32⟩
  | .hbm, ⟨71, _⟩ => ⟨S540672, .i32⟩
  | .hbm, ⟨72, _⟩ => ⟨S540672, .i1⟩
  | .hbm, ⟨73, _⟩ => ⟨S_, .i32⟩
  | .hbm, ⟨74, _⟩ => ⟨S540672, .i32⟩
  | .hbm, ⟨75, _⟩ => ⟨S540672, .i32⟩
  | .hbm, ⟨76, _⟩ => ⟨S540672, .i32⟩
  | .hbm, ⟨77, _⟩ => ⟨S540672x1, .i32⟩
  | .hbm, ⟨78, _⟩ => ⟨S540672x32, .f32⟩
  | .hbm, ⟨79, _⟩ => ⟨S540672x1, .f32⟩
  | .hbm, ⟨80, _⟩ => ⟨S540672x32, .f32⟩
  | .hbm, ⟨81, _⟩ => ⟨S540672x32, .f32⟩
  | .hbm, ⟨82, _⟩ => ⟨S_, .f32⟩
  | .hbm, ⟨83, _⟩ => ⟨S16384x32, .f32⟩
  | .hbm, ⟨84, _⟩ => ⟨S540672x1, .i32⟩
  | .hbm, ⟨85, _⟩ => ⟨S16384x32, .f32⟩
  | .hbm, ⟨86, _⟩ => ⟨S1x32, .f32⟩
  | .hbm, ⟨87, _⟩ => ⟨S16384x32, .f32⟩
  | .hbm, ⟨88, _⟩ => ⟨S16384x32, .f32⟩
  | .hbm, ⟨89, _⟩ => ⟨S16384x16384, .f32⟩
  | .local _ .vmem, ⟨0, _⟩ => ⟨S1024x32, .f32⟩
  | .local _ .vmem, ⟨1, _⟩ => ⟨S1024x32, .f32⟩
  | .local _ .vmem, ⟨2, _⟩ => ⟨S2048x32, .f32⟩
  | .local _ .vmem, ⟨3, _⟩ => ⟨S2048x32, .f32⟩
  | .local _ .vmem, ⟨4, _⟩ => ⟨S1024x2048, .f32⟩
  | .local _ .vmem, ⟨5, _⟩ => ⟨S1024x2048, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  slices_S2x524288_S1x524288_0_0 : S2x524288.Slices ![0, 0] S1x524288
  shapeCasts_S1x524288_S524288 : S1x524288.ShapeCasts S524288
  concatenates_S524288_S16384_S540672_d0 : Shape.Concatenates [S524288, S16384] S540672 0
  slices_S2x524288_S1x524288_1_0 : S2x524288.Slices ![1, 0] S1x524288
  bcast_S_S540672 : S_.BroadcastsInDim S540672 (![] : Fin 0 → Fin S540672.rank)
  bcast_S_S16384 : S_.BroadcastsInDim S16384 (![] : Fin 0 → Fin S16384.rank)
  bcast_S540672_S540672x1_0 : S540672.BroadcastsInDim S540672x1 (![0] : Fin 1 → Fin S540672x1.rank)
  bcast_S540672x1_S540672x64_0_1 : S540672x1.BroadcastsInDim S540672x64 (![0, 1] : Fin 2 → Fin S540672x64.rank)
  bcast_S_S16384x64 : S_.BroadcastsInDim S16384x64 (![] : Fin 0 → Fin S16384x64.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S540672x1_S540672x32_0_1 : S540672x1.BroadcastsInDim S540672x32 (![0, 1] : Fin 2 → Fin S540672x32.rank)
  bcast_S_S16384x32 : S_.BroadcastsInDim S16384x32 (![] : Fin 0 → Fin S16384x32.rank)
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  bitsLt_bf16_f32 : FTy.bits .bf16 < FTy.bits .f32
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  inb_S1024x2048_S1024x2048_0_0 : ∀ a, (![0, 0] : Fin 2 → Nat) a + S1024x2048.size a ≤ S1024x2048.size a
  h_S1024x2048 : 0 < S1024x2048.numel
  scatter_S16384_S540672x1_S540672_n_0_0_1_wf : ScatterDims.WF S16384 S540672x1 S540672 [] [0] [0] 1
  gather_S16384_S540672x1_S540672_n_0_n_n_0_1_1_wf : GatherDims.WF S16384 S540672x1 S540672 [] [0] [] [0] [] 1 ![1]
  dot_S16384x512_S512x64_S16384x64_1_0_0_1_n_n_wf : DotDims.WF S16384x512 S512x64 S16384x64 [1] [0] [0] [1] [] []
  gather_S16384x64_S540672x1_S540672x64_1_0_n_n_0_1_164_wf : GatherDims.WF S16384x64 S540672x1 S540672x64 [1] [0] [] [0] [] 1 ![1, 64]
  scatter_S16384x64_S540672x1_S540672x64_1_0_0_1_wf : ScatterDims.WF S16384x64 S540672x1 S540672x64 [1] [0] [0] 1
  dot_S16384x64_S64x32_S16384x32_1_0_0_1_n_n_wf : DotDims.WF S16384x64 S64x32 S16384x32 [1] [0] [0] [1] [] []
  gather_S16384x32_S540672x1_S540672x32_1_0_n_n_0_1_132_wf : GatherDims.WF S16384x32 S540672x1 S540672x32 [1] [0] [] [0] [] 1 ![1, 32]
  scatter_S16384x32_S540672x1_S540672x32_1_0_0_1_wf : ScatterDims.WF S16384x32 S540672x1 S540672x32 [1] [0] [0] 1
  dot_S1024x32_S2048x32_S1024x2048_1_1_0_0_n_n_wf : DotDims.WF S1024x32 S2048x32 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x32.size a ≤ S16384x32.size a
  hwx0_0 : ∀ i : grid0.Coords, EltTy.bits .f32 = 32 ∨ (Rect.block (s := S16384x32) S1024x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x32.size a ≤ S16384x32.size a
  hwx0_1 : ∀ i : grid0.Coords, EltTy.bits .f32 = 32 ∨ (Rect.block (s := S16384x32) S2048x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S16384x16384.size a
  hwx0_2 : ∀ i : grid0.Coords, EltTy.bits .f32 = 32 ∨ (Rect.block (s := S16384x16384) S1024x2048.size (cc0_transform_2 i) (hinb0_2 i)).WholeWords (EltTy.packing .f32)

variable [Facts₀]

def scatter_S16384_S540672x1_S540672_n_0_0_1 : ScatterDims S16384 S540672x1 S540672 where
  updateWindowDims := []
  insertedWindowDims := [0]
  scatterDimsToOperandDims := [0]
  indexVectorDim := 1
  wf := scatter_S16384_S540672x1_S540672_n_0_0_1_wf
def gather_S16384_S540672x1_S540672_n_0_n_n_0_1_1 : GatherDims S16384 S540672x1 S540672 where
  offsetDims := []
  collapsedSliceDims := [0]
  operandBatchingDims := []
  startIndicesBatchingDims := []
  startIndexMap := [0]
  indexVectorDim := 1
  sliceSizes := ![1]
  wf := gather_S16384_S540672x1_S540672_n_0_n_n_0_1_1_wf
def dot_S16384x512_S512x64_S16384x64_1_0_0_1_n_n : DotDims S16384x512 S512x64 S16384x64 where
  lhsContracting := [1]
  rhsContracting := [0]
  lhsNonContracting := [0]
  rhsNonContracting := [1]
  lhsBatch := []
  rhsBatch := []
  wf := dot_S16384x512_S512x64_S16384x64_1_0_0_1_n_n_wf
def gather_S16384x64_S540672x1_S540672x64_1_0_n_n_0_1_164 : GatherDims S16384x64 S540672x1 S540672x64 where
  offsetDims := [1]
  collapsedSliceDims := [0]
  operandBatchingDims := []
  startIndicesBatchingDims := []
  startIndexMap := [0]
  indexVectorDim := 1
  sliceSizes := ![1, 64]
  wf := gather_S16384x64_S540672x1_S540672x64_1_0_n_n_0_1_164_wf
def scatter_S16384x64_S540672x1_S540672x64_1_0_0_1 : ScatterDims S16384x64 S540672x1 S540672x64 where
  updateWindowDims := [1]
  insertedWindowDims := [0]
  scatterDimsToOperandDims := [0]
  indexVectorDim := 1
  wf := scatter_S16384x64_S540672x1_S540672x64_1_0_0_1_wf
def dot_S16384x64_S64x32_S16384x32_1_0_0_1_n_n : DotDims S16384x64 S64x32 S16384x32 where
  lhsContracting := [1]
  rhsContracting := [0]
  lhsNonContracting := [0]
  rhsNonContracting := [1]
  lhsBatch := []
  rhsBatch := []
  wf := dot_S16384x64_S64x32_S16384x32_1_0_0_1_n_n_wf
def gather_S16384x32_S540672x1_S540672x32_1_0_n_n_0_1_132 : GatherDims S16384x32 S540672x1 S540672x32 where
  offsetDims := [1]
  collapsedSliceDims := [0]
  operandBatchingDims := []
  startIndicesBatchingDims := []
  startIndexMap := [0]
  indexVectorDim := 1
  sliceSizes := ![1, 32]
  wf := gather_S16384x32_S540672x1_S540672x32_1_0_n_n_0_1_132_wf
def scatter_S16384x32_S540672x1_S540672x32_1_0_0_1 : ScatterDims S16384x32 S540672x1 S540672x32 where
  updateWindowDims := [1]
  insertedWindowDims := [0]
  scatterDimsToOperandDims := [0]
  indexVectorDim := 1
  wf := scatter_S16384x32_S540672x1_S540672x32_1_0_0_1_wf
def dot_S1024x32_S2048x32_S1024x2048_1_1_0_0_n_n : DotDims S1024x32 S2048x32 S1024x2048 where
  lhsContracting := [1]
  rhsContracting := [1]
  lhsNonContracting := [0]
  rhsNonContracting := [0]
  lhsBatch := []
  rhsBatch := []
  wf := dot_S1024x32_S2048x32_S1024x2048_1_1_0_0_n_n_wf

abbrev win0_0 : Pipeline.Window sig grid0 :=
  Pipeline.Window.ofSpec (Memref.whole main_v64) S1024x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v64) S2048x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v65) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x512 : Shape := ⟨2, ![16384, 512]⟩
abbrev S2x524288 : Shape := ⟨2, ![2, 524288]⟩
abbrev S512x64 : Shape := ⟨2, ![512, 64]⟩
abbrev S64 : Shape := ⟨1, ![64]⟩
abbrev S64x32 : Shape := ⟨2, ![64, 32]⟩
abbrev S32 : Shape := ⟨1, ![32]⟩
abbrev S16384 : Shape := ⟨1, ![16384]⟩
abbrev S1x524288 : Shape := ⟨2, ![1, 524288]⟩
abbrev S524288 : Shape := ⟨1, ![524288]⟩
abbrev S540672 : Shape := ⟨1, ![540672]⟩
abbrev S_ : Shape := ⟨0, ![]⟩
abbrev S540672x1 : Shape := ⟨2, ![540672, 1]⟩
abbrev S16384x64 : Shape := ⟨2, ![16384, 64]⟩
abbrev S540672x64 : Shape := ⟨2, ![540672, 64]⟩
abbrev S1x64 : Shape := ⟨2, ![1, 64]⟩
abbrev S16384x32 : Shape := ⟨2, ![16384, 32]⟩
abbrev S540672x32 : Shape := ⟨2, ![540672, 32]⟩
abbrev S1x32 : Shape := ⟨2, ![1, 32]⟩
abbrev S32x16384 : Shape := ⟨2, ![32, 16384]⟩
abbrev S16384x16384 : Shape := ⟨2, ![16384, 16384]⟩

abbrev nBuf : Space → Nat
  | .hbm => 99
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S2x524288, .i32⟩
  | .hbm, ⟨2, _⟩ => ⟨S512x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S16384, .i32⟩
  | .hbm, ⟨7, _⟩ => ⟨S1x524288, .i32⟩
  | .hbm, ⟨8, _⟩ => ⟨S524288, .i32⟩
  | .hbm, ⟨9, _⟩ => ⟨S540672, .i32⟩
  | .hbm, ⟨10, _⟩ => ⟨S1x524288, .i32⟩
  | .hbm, ⟨11, _⟩ => ⟨S524288, .i32⟩
  | .hbm, ⟨12, _⟩ => ⟨S540672, .i32⟩
  | .hbm, ⟨13, _⟩ => ⟨S_, .f32⟩
  | .hbm, ⟨14, _⟩ => ⟨S540672, .f32⟩
  | .hbm, ⟨15, _⟩ => ⟨S_, .f32⟩
  | .hbm, ⟨16, _⟩ => ⟨S16384, .f32⟩
  | .hbm, ⟨17, _⟩ => ⟨S540672x1, .i32⟩
  | .hbm, ⟨18, _⟩ => ⟨S16384, .f32⟩
  | .hbm, ⟨19, _⟩ => ⟨S_, .f32⟩
  | .hbm, ⟨20, _⟩ => ⟨S16384, .f32⟩
  | .hbm, ⟨21, _⟩ => ⟨S16384, .i1⟩
  | .hbm, ⟨22, _⟩ => ⟨S16384, .f32⟩
  | .hbm, ⟨23, _⟩ => ⟨S_, .f32⟩
  | .hbm, ⟨24, _⟩ => ⟨S_, .f32⟩
  | .hbm, ⟨25, _⟩ => ⟨S16384, .f32⟩
  | .hbm, ⟨26, _⟩ => ⟨S16384, .f32⟩
  | .hbm, ⟨27, _⟩ => ⟨S_, .i32⟩
  | .hbm, ⟨28, _⟩ => ⟨S540672, .i32⟩
  | .hbm, ⟨29, _⟩ => ⟨S540672, .i1⟩
  | .hbm, ⟨30, _⟩ => ⟨S_, .i32⟩
  | .hbm, ⟨31, _⟩ => ⟨S540672, .i32⟩
  | .hbm, ⟨32, _⟩ => ⟨S540672, .i32⟩
  | .hbm, ⟨33, _⟩ => ⟨S540672, .i32⟩
  | .hbm, ⟨34, _⟩ => ⟨S540672x1, .i32⟩
  | .hbm, ⟨35, _⟩ => ⟨S540672, .f32⟩
  | .hbm, ⟨36, _⟩ => ⟨S_, .i32⟩
  | .hbm, ⟨37, _⟩ => ⟨S540672, .i32⟩
  | .hbm, ⟨38, _⟩ => ⟨S540672, .i1⟩
  | .hbm, ⟨39, _⟩ => ⟨S_, .i32⟩
  | .hbm, ⟨40, _⟩ => ⟨S540672, .i32⟩
  | .hbm, ⟨41, _⟩ => ⟨S540672, .i32⟩
  | .hbm, ⟨42, _⟩ => ⟨S540672, .i32⟩
  | .hbm, ⟨43, _⟩ => ⟨S540672x1, .i32⟩
  | .hbm, ⟨44, _⟩ => ⟨S540672, .f32⟩
  | .hbm, ⟨45, _⟩ => ⟨S540672, .f32⟩
  | .hbm, ⟨46, _⟩ => ⟨S16384x64, .f32⟩
  | .hbm, ⟨47, _⟩ => ⟨S_, .i32⟩
  | .hbm, ⟨48, _⟩ => ⟨S540672, .i32⟩
  | .hbm, ⟨49, _⟩ => ⟨S540672, .i1⟩
  | .hbm, ⟨50, _⟩ => ⟨S_, .i32⟩
  | .hbm, ⟨51, _⟩ => ⟨S540672, .i32⟩
  | .hbm, ⟨52, _⟩ => ⟨S540672, .i32⟩
  | .hbm, ⟨53, _⟩ => ⟨S540672, .i32⟩
  | .hbm, ⟨54, _⟩ => ⟨S540672x1, .i32⟩
  | .hbm, ⟨55, _⟩ => ⟨S540672x64, .f32⟩
  | .hbm, ⟨56, _⟩ => ⟨S540672x1, .f32⟩
  | .hbm, ⟨57, _⟩ => ⟨S540672x64, .f32⟩
  | .hbm, ⟨58, _⟩ => ⟨S540672x64, .f32⟩
  | .hbm, ⟨59, _⟩ => ⟨S_, .f32⟩
  | .hbm, ⟨60, _⟩ => ⟨S16384x64, .f32⟩
  | .hbm, ⟨61, _⟩ => ⟨S540672x1, .i32⟩
  | .hbm, ⟨62, _⟩ => ⟨S16384x64, .f32⟩
  | .hbm, ⟨63, _⟩ => ⟨S1x64, .f32⟩
  | .hbm, ⟨64, _⟩ => ⟨S16384x64, .f32⟩
  | .hbm, ⟨65, _⟩ => ⟨S16384x64, .f32⟩
  | .hbm, ⟨66, _⟩ => ⟨S_, .f32⟩
  | .hbm, ⟨67, _⟩ => ⟨S16384x64, .f32⟩
  | .hbm, ⟨68, _⟩ => ⟨S16384x64, .f32⟩
  | .hbm, ⟨69, _⟩ => ⟨S16384x32, .f32⟩
  | .hbm, ⟨70, _⟩ => ⟨S_, .i32⟩
  | .hbm, ⟨71, _⟩ => ⟨S540672, .i32⟩
  | .hbm, ⟨72, _⟩ => ⟨S540672, .i1⟩
  | .hbm, ⟨73, _⟩ => ⟨S_, .i32⟩
  | .hbm, ⟨74, _⟩ => ⟨S540672, .i32⟩
  | .hbm, ⟨75, _⟩ => ⟨S540672, .i32⟩
  | .hbm, ⟨76, _⟩ => ⟨S540672, .i32⟩
  | .hbm, ⟨77, _⟩ => ⟨S540672x1, .i32⟩
  | .hbm, ⟨78, _⟩ => ⟨S540672x32, .f32⟩
  | .hbm, ⟨79, _⟩ => ⟨S540672x1, .f32⟩
  | .hbm, ⟨80, _⟩ => ⟨S540672x32, .f32⟩
  | .hbm, ⟨81, _⟩ => ⟨S540672x32, .f32⟩
  | .hbm, ⟨82, _⟩ => ⟨S_, .f32⟩
  | .hbm, ⟨83, _⟩ => ⟨S16384x32, .f32⟩
  | .hbm, ⟨84, _⟩ => ⟨S540672x1, .i32⟩
  | .hbm, ⟨85, _⟩ => ⟨S16384x32, .f32⟩
  | .hbm, ⟨86, _⟩ => ⟨S1x32, .f32⟩
  | .hbm, ⟨87, _⟩ => ⟨S16384x32, .f32⟩
  | .hbm, ⟨88, _⟩ => ⟨S16384x32, .f32⟩
  | .hbm, ⟨89, _⟩ => ⟨S32x16384, .f32⟩
  | .hbm, ⟨90, _⟩ => ⟨S16384x16384, .f32⟩
  | .hbm, ⟨91, _⟩ => ⟨S16384x16384, .f32⟩
  | .hbm, ⟨92, _⟩ => ⟨S16384x16384, .f32⟩
  | .hbm, ⟨93, _⟩ => ⟨S_, .f32⟩
  | .hbm, ⟨94, _⟩ => ⟨S16384x16384, .f32⟩
  | .hbm, ⟨95, _⟩ => ⟨S16384x16384, .f32⟩
  | .hbm, ⟨96, _⟩ => ⟨S_, .f32⟩
  | .hbm, ⟨97, _⟩ => ⟨S16384x16384, .f32⟩
  | .hbm, ⟨98, _⟩ => ⟨S16384x16384, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_12 : Ref sig .tc := ⟨.hbm, 93, rfl⟩
abbrev main_v69 : Ref sig .tc := ⟨.hbm, 94, rfl⟩
abbrev main_v70 : Ref sig .tc := ⟨.hbm, 95, rfl⟩
abbrev main_cst_13 : Ref sig .tc := ⟨.hbm, 96, rfl⟩
abbrev main_v71 : Ref sig .tc := ⟨.hbm, 97, rfl⟩
abbrev main_v72 : Ref sig .tc := ⟨.hbm, 98, rfl⟩

abbrev nD : Nat := 1
abbrev τ : Topo := Topo.v7x

variable {F : FTy → Type} [FloatOps F]

class Facts₀ : Prop where
  slices_S2x524288_S1x524288_0_0 : S2x524288.Slices ![0, 0] S1x524288
  shapeCasts_S1x524288_S524288 : S1x524288.ShapeCasts S524288
  concatenates_S524288_S16384_S540672_d0 : Shape.Concatenates [S524288, S16384] S540672 0
  slices_S2x524288_S1x524288_1_0 : S2x524288.Slices ![1, 0] S1x524288
  bcast_S_S540672 : S_.BroadcastsInDim S540672 (![] : Fin 0 → Fin S540672.rank)
  bcast_S_S16384 : S_.BroadcastsInDim S16384 (![] : Fin 0 → Fin S16384.rank)
  bcast_S540672_S540672x1_0 : S540672.BroadcastsInDim S540672x1 (![0] : Fin 1 → Fin S540672x1.rank)
  bcast_S540672x1_S540672x64_0_1 : S540672x1.BroadcastsInDim S540672x64 (![0, 1] : Fin 2 → Fin S540672x64.rank)
  bcast_S_S16384x64 : S_.BroadcastsInDim S16384x64 (![] : Fin 0 → Fin S16384x64.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S540672x1_S540672x32_0_1 : S540672x1.BroadcastsInDim S540672x32 (![0, 1] : Fin 2 → Fin S540672x32.rank)
  bcast_S_S16384x32 : S_.BroadcastsInDim S16384x32 (![] : Fin 0 → Fin S16384x32.rank)
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  transposes_S16384x32_S32x16384_1_0 : S16384x32.Transposes [1, 0] S32x16384
  bcast_S_S16384x16384 : S_.BroadcastsInDim S16384x16384 (![] : Fin 0 → Fin S16384x16384.rank)
  scatter_S16384_S540672x1_S540672_n_0_0_1_wf : ScatterDims.WF S16384 S540672x1 S540672 [] [0] [0] 1
  gather_S16384_S540672x1_S540672_n_0_n_n_0_1_1_wf : GatherDims.WF S16384 S540672x1 S540672 [] [0] [] [0] [] 1 ![1]
  dot_S16384x512_S512x64_S16384x64_1_0_0_1_n_n_wf : DotDims.WF S16384x512 S512x64 S16384x64 [1] [0] [0] [1] [] []
  gather_S16384x64_S540672x1_S540672x64_1_0_n_n_0_1_164_wf : GatherDims.WF S16384x64 S540672x1 S540672x64 [1] [0] [] [0] [] 1 ![1, 64]
  scatter_S16384x64_S540672x1_S540672x64_1_0_0_1_wf : ScatterDims.WF S16384x64 S540672x1 S540672x64 [1] [0] [0] 1
  dot_S16384x64_S64x32_S16384x32_1_0_0_1_n_n_wf : DotDims.WF S16384x64 S64x32 S16384x32 [1] [0] [0] [1] [] []
  gather_S16384x32_S540672x1_S540672x32_1_0_n_n_0_1_132_wf : GatherDims.WF S16384x32 S540672x1 S540672x32 [1] [0] [] [0] [] 1 ![1, 32]
  scatter_S16384x32_S540672x1_S540672x32_1_0_0_1_wf : ScatterDims.WF S16384x32 S540672x1 S540672x32 [1] [0] [0] 1
  dot_S16384x32_S32x16384_S16384x16384_1_0_0_1_n_n_wf : DotDims.WF S16384x32 S32x16384 S16384x16384 [1] [0] [0] [1] [] []

variable [Facts₀]

def scatter_S16384_S540672x1_S540672_n_0_0_1 : ScatterDims S16384 S540672x1 S540672 where
  updateWindowDims := []
  insertedWindowDims := [0]
  scatterDimsToOperandDims := [0]
  indexVectorDim := 1
  wf := scatter_S16384_S540672x1_S540672_n_0_0_1_wf
def gather_S16384_S540672x1_S540672_n_0_n_n_0_1_1 : GatherDims S16384 S540672x1 S540672 where
  offsetDims := []
  collapsedSliceDims := [0]
  operandBatchingDims := []
  startIndicesBatchingDims := []
  startIndexMap := [0]
  indexVectorDim := 1
  sliceSizes := ![1]
  wf := gather_S16384_S540672x1_S540672_n_0_n_n_0_1_1_wf
def dot_S16384x512_S512x64_S16384x64_1_0_0_1_n_n : DotDims S16384x512 S512x64 S16384x64 where
  lhsContracting := [1]
  rhsContracting := [0]
  lhsNonContracting := [0]
  rhsNonContracting := [1]
  lhsBatch := []
  rhsBatch := []
  wf := dot_S16384x512_S512x64_S16384x64_1_0_0_1_n_n_wf
def gather_S16384x64_S540672x1_S540672x64_1_0_n_n_0_1_164 : GatherDims S16384x64 S540672x1 S540672x64 where
  offsetDims := [1]
  collapsedSliceDims := [0]
  operandBatchingDims := []
  startIndicesBatchingDims := []
  startIndexMap := [0]
  indexVectorDim := 1
  sliceSizes := ![1, 64]
  wf := gather_S16384x64_S540672x1_S540672x64_1_0_n_n_0_1_164_wf
def scatter_S16384x64_S540672x1_S540672x64_1_0_0_1 : ScatterDims S16384x64 S540672x1 S540672x64 where
  updateWindowDims := [1]
  insertedWindowDims := [0]
  scatterDimsToOperandDims := [0]
  indexVectorDim := 1
  wf := scatter_S16384x64_S540672x1_S540672x64_1_0_0_1_wf
def dot_S16384x64_S64x32_S16384x32_1_0_0_1_n_n : DotDims S16384x64 S64x32 S16384x32 where
  lhsContracting := [1]
  rhsContracting := [0]
  lhsNonContracting := [0]
  rhsNonContracting := [1]
  lhsBatch := []
  rhsBatch := []
  wf := dot_S16384x64_S64x32_S16384x32_1_0_0_1_n_n_wf
def gather_S16384x32_S540672x1_S540672x32_1_0_n_n_0_1_132 : GatherDims S16384x32 S540672x1 S540672x32 where
  offsetDims := [1]
  collapsedSliceDims := [0]
  operandBatchingDims := []
  startIndicesBatchingDims := []
  startIndexMap := [0]
  indexVectorDim := 1
  sliceSizes := ![1, 32]
  wf := gather_S16384x32_S540672x1_S540672x32_1_0_n_n_0_1_132_wf
def scatter_S16384x32_S540672x1_S540672x32_1_0_0_1 : ScatterDims S16384x32 S540672x1 S540672x32 where
  updateWindowDims := [1]
  insertedWindowDims := [0]
  scatterDimsToOperandDims := [0]
  indexVectorDim := 1
  wf := scatter_S16384x32_S540672x1_S540672x32_1_0_0_1_wf
def dot_S16384x32_S32x16384_S16384x16384_1_0_0_1_n_n : DotDims S16384x32 S32x16384 S16384x16384 where
  lhsContracting := [1]
  rhsContracting := [0]
  lhsNonContracting := [0]
  rhsNonContracting := [1]
  lhsBatch := []
  rhsBatch := []
  wf := dot_S16384x32_S32x16384_S16384x16384_1_0_0_1_n_n_wf

class Facts : Prop extends Facts₀ where

variable [Facts]
-- ==== Proof.K.Data.lean ====
/-
  The decode region's proof data, at any float instance.

  The region has three windows on a 16 × 8 grid: window 0 is the 1024-row block `i` of the embedding `z` (16384 × 32),
  window 1 the 2048-row block `j` of the SAME array, window 2 the 1024 × 2048 block `(i, j)` of the result. Its body
  loads the two input blocks whole and stores one value, a function of the two, over the whole output block; nothing is
  kept between points. So after the body at a point each input buffer still holds its block and the output buffer holds
  that function of the two blocks. The two input windows read one array: each holds half of its full share.
-/
import proofs.«181304_j52699248722457_1_alg».proof.Proof.Gen.Kernel.Launch
import proofs.«181304_j52699248722457_1_alg».proof.Proof.Gen.Kernel.Skeleton
import proofs.«181304_j52699248722457_1_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

variable (m : (ℓ : Loc nD τ sig) → Buf (Elt F) ℓ)

/-- Core `c`'s buffers when the region is entered: the launch contents after the five stretches of host operations
    that compute the embedding. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The body's three accesses: each the whole of its buffer. -/
abbrev r0_0 : Rect S1024x32 := Rect.unit (s := S1024x32) ![0, 0] S1024x32.size inb_S1024x32_S1024x32_0_0
abbrev r0_1 : Rect S2048x32 := Rect.unit (s := S2048x32) ![0, 0] S2048x32.size inb_S2048x32_S2048x32_0_0
abbrev r0_2 : Rect S1024x2048 := Rect.unit (s := S1024x2048) ![0, 0] S1024x2048.size inb_S1024x2048_S1024x2048_0_0

/-- The output buffer after the body, from the two input blocks: the one store's value over the whole buffer. -/
def out0_2 (x0 : Vec F S1024x32 .f32) (x1 : Vec F S2048x32 .f32) : Vec F S1024x2048 .f32 :=
  View.canon [⟨r0_2, k0_pay1 (View.ld x0 r0_0) (View.ld x1 r0_1)⟩]

/-- The one store covers the output buffer. -/
theorem cover0_2 (p0 : Vec F S1024x2048 .f32) (y : S1024x2048.Idx) :
    ∃ pc ∈ ([⟨r0_2, p0⟩] : List (View.Piece (Elt F) S1024x2048 .f32)), y ∈ pc.1.set :=
  View.cover_of_tiled [⟨r0_2, p0⟩] S1024x2048.size (by rfl) y

/-- The proof data on core `c`: the arrays as the region finds them; after the body each input buffer at its block, the
    output buffer at `out0_2` of the two blocks; the invariant the core's scoped buffers that are no staging buffer, untouched (the body names none);
    nothing owed; the two windows on the embedding hold the two halves of its full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

end Cert.Kernel.Hand

end
-- ==== Proof.K.Run.lean ====
/-
  The decode region's frame run, at any float instance.

  @main is five stretches of host operations and then the region. Up to the region the core's buffers go from the launch
  contents to `V`. At every grid point each input buffer holds its block of the embedding (fetched there or not: an
  unfetched block has the index it had at the point before), the body reads both and overwrites the whole output
  buffer, and the block is written back. The embedding's array is read by two windows: its full share is dealt to them
  as two halves when the region is entered. Every weakly fair execution therefore terminates with each windowed array
  at what the write-backs leave and every other unscoped buffer as the region found it.
-/
import proofs.«181304_j52699248722457_1_alg».proof.Proof.K.Data
import Idealize.ShloMosaic.Lib.Pipeline.Kit
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- No host operation allocates a buffer. -/
theorem fresh0 : (hostOps0 : List (HloOp τ sig (Elt F))).Forall fun op => op.fresh = ∅ := by
  simp only [List.Forall]; repeat' constructor
theorem fresh0_1 : (hostOps0_1 : List (HloOp τ sig (Elt F))).Forall fun op => op.fresh = ∅ := by
  simp only [List.Forall]; repeat' constructor
theorem fresh0_2 : (hostOps0_2 : List (HloOp τ sig (Elt F))).Forall fun op => op.fresh = ∅ := by
  simp only [List.Forall]; repeat' constructor
theorem fresh0_3 : (hostOps0_3 : List (HloOp τ sig (Elt F))).Forall fun op => op.fresh = ∅ := by
  simp only [List.Forall]; repeat' constructor
theorem fresh0_4 : (hostOps0_4 : List (HloOp τ sig (Elt F))).Forall fun op => op.fresh = ∅ := by
  simp only [List.Forall]; repeat' constructor

/-- @main up to the region: the five stretches of host operations take the unscoped buffers from the launch contents
    to `V`, then comes the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨fresh0, fresh0_1, fresh0_2, fresh0_3, fresh0_4⟩) main_chain

/-! ## What the body finds in the input buffers -/

/-- Window 0's current buffer holds block `t / 8` of the embedding at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
/-- Window 1's current buffer holds block `t % 8` of the embedding at every point. -/
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)

/-! ## The body -/

set_option maxHeartbeats 1000000 in
/-- On whole buffers, the inputs' at contents `x0`, `x1` and the output's at anything, the body runs to the continuation
    holding the inputs' as they were and the output's at `out0_2 x0 x1`: it loads the three buffers and stores one
    value, a function of the first two loads, over the whole of the third. -/
theorem sound_kernel (c : Dev nD) (E : Set ℕ) (i : grid0.Coords)
    (arg2 : Memref sig .tc .vmem S1024x32 .f32) (harg2 : arg2.IsWhole) (arg3 : Memref sig .tc .vmem S2048x32 .f32) (harg3 : arg3.IsWhole)
    (arg4 : Memref sig .tc .vmem S1024x2048 .f32) (harg4 : arg4.IsWhole)
    (x0 : Vec F S1024x32 .f32) (x1 : Vec F S2048x32 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__decode_kernel i arg2 harg2 arg3 harg3 arg4 harg4) K := by
  simp only [cc0__decode_kernel_eq_skeleton]; unfold cc0__decode_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so `sound_kernel` applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation (c : Dev nD) : BodyObligation (dats (F := F) m 0 c) (defs₀ (F := F)) Variants.none () Set.univ := fun t => by
  rw [bigSep_W0, bigSep_W0]
  exact sound_body m c t

/-! ## The embedding's share, dealt to its two windows -/

/-- How the two arrays' full shares are dealt to the three windows: the embedding's left half to window 0, its right
    half to window 1, the result whole to window 2. -/
def deal : Fin cfg0.W → PosShare TreeShare := fun w => match w with
  | ⟨0, _⟩ => fullShare.left
  | ⟨1, _⟩ => fullShare.right
  | ⟨2, _⟩ => fullShare

/-- For any valuation `W` of the core's buffers and any proof data that holds the arrays at the shares `deal` and at
    `W`'s contents when the region is entered: the buffers behind the windows' arrays — the embedding and the result,
    each whole at the full share — are the proof data's arrays at entry. -/
theorem hsplit_of (c : Dev nD) (W : (b : Ref sig .tc) → Buf (Elt F) ((c.tc : Thread nD τ).loc b))
    (dat : Dat τ (Elt F) Unit ℕ (UR sig nD τ) ℕ cfg0 c) (hs : ∀ w, dat.share w = deal w)
    (hA : ∀ w, dat.arrAt w 0 = W (Pipeline.arrRef spec0 w)) :
    (Pipeline.arrBufs (Ix := Unit) (Name := ℕ) (U := UR sig nD τ) (Lvl := ℕ) spec0 c W : sProp 𝕄)
      ⊢ dat.arrays (dat.arrAt · 0) := by
  have harrays : dat.arrays (dat.arrAt · 0)
      = bigSep Finset.univ fun w : Fin cfg0.W => (((c.tc : Thread nD τ).loc (Pipeline.arrRef spec0 w)) ↦{deal w} W (Pipeline.arrRef spec0 w) : sProp 𝕄) := by
    unfold Dat.arrays
    exact bigSep_congr fun w _ => by rw [(arr_whole0 w).set_eq_univ, hs w]; beta_reduce; rw [hA w]
  rewrite [harrays]
  unfold Pipeline.arrBufs
  rewrite [bigSep_eq_bigSepL_of_eq [main_v64, main_v65] (by decide) (by decide), bigSep_W0]
  show iprop((((c.tc : Thread nD τ).loc main_v64) ↦{fullShare} W main_v64) ∗ (((c.tc : Thread nD τ).loc main_v65) ↦{fullShare} W main_v65))
    ⊢ iprop((((c.tc : Thread nD τ).loc main_v64) ↦{fullShare.left} W main_v64) ∗ (((c.tc : Thread nD τ).loc main_v64) ↦{fullShare.right} W main_v64)
        ∗ (((c.tc : Thread nD τ).loc main_v65) ↦{fullShare} W main_v65))
  iintro ⟨Hz, Hr⟩
  ihave Hz := (pointsTo_share (PosShare.mem_left_op_right fullShare)).1 $$ Hz
  icases Hz with ⟨Hz₁, Hz₂⟩
  isplitl [Hz₁]; · iexact Hz₁
  isplitl [Hz₂]; · iexact Hz₂
  iexact Hr

/-- The proof data holds the arrays at the shares `deal`. -/
theorem share_eq (c : Dev nD) (w : Fin cfg0.W) : (dats m 0 c).share w = deal w := by
  unfold Dat.share
  match w with
  | ⟨0, _⟩ => rw [if_neg (fun hh => Bool.false_ne_true hh)]; dsimp only [dats, deal]
  | ⟨1, _⟩ => rw [if_neg (fun hh => Bool.false_ne_true hh)]; dsimp only [dats, deal]
  | ⟨2, _⟩ => rw [if_pos rfl]; dsimp only [deal]

/-- The embedding's full share is dealt to its two windows when the region is entered. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) :=
  hsplit_of c (V m c) (dats m 0 c) (share_eq m c) (fun w => (show (dats m 0 c).arrAt w 0 = (dats m 0 c).A w from rfl).trans (A_eq m c w))

/-! ## The run -/

/-- The proof data's invariant is the same at every point: the scoped buffers that are no staging buffer. -/
theorem Φ_eq (c : Dev nD) (t : Fin (cfg0.N + 1)) :
    (dats m 0 c).Φ t = Pipeline.scopedRest (Ix := Unit) (Name := ℕ) (U := UR sig nD τ) (Lvl := ℕ) (Val := Elt F) spec0 c := by
  dsimp only [dats]

set_option maxHeartbeats 1000000 in
set_option backward.isDefEq.respectTransparency.types false in
/-- From any memory with zero counters every weakly fair execution of @main terminates, and every final state has each
    windowed array at what the write-backs leave of it (the embedding untouched, the result overwritten block by block)
    and every other unscoped buffer as the region found it. -/
theorem run_main : θ_run defs (onTc (τ := τ) (main (F := F))) (s₀ m ρ) (Pipeline.FramePost cfgs (dats m) 0 (V m)) := by
  classical
  exact Pipeline.θ_run_region_noSem_shared cfgs (dats m) () cellOf_inj (0 : Fin 1) winFacts₀0 emb₁ defs₀ Variants.none m ρ main
    (fun c => (body_obligation m c).loose) block_pos0 arr_whole0 stage_whole0 (fun _ _ => rfl)
    (initOf (Pipeline.cells cfgs cellOf_inj) (Pipeline.launchToks cfgs cellOf_inj)) .rfl
    (V m) (hmain m Variants.none) (hsplit m)
    (fun _ => iprop(emp)) (fun _ => iprop(emp))
    (fun c => Pipeline.unscopedRest (Ix := Unit) (Name := ℕ) (U := UR sig nD τ) (Lvl := ℕ) spec0 c (V m c))
    (fun c => by iintro H; isplitr; · iempintro
                 iexact H)
    (fun c => by rw [Φ_eq]; iintro ⟨-, H⟩; iexact H)
    (fun c => by rw [Φ_eq]; iintro H; isplitr; · iempintro
                 iexact H)
    (fun c s => ∀ b ∈ Pipeline.restRefs sig spec0, s.mem ((c.tc : Thread nD τ).loc b) = V m c b)
    (fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (fun s h c => ⟨(h c).1, (h c).2⟩)

end Cert.Kernel.Hand

end
-- ==== Proof.K.HostArgs.lean ====
/-
  The host operations that run before the decode region compute the embedding from the six argument arrays; none
  of them writes an argument array, so the region finds each argument as launched. Each operation's set of written
  buffers is the singleton of its result, and every result reference differs from every argument reference.
  Also: none of these operations allocates a buffer of unchosen contents.
-/
import proofs.«181304_j52699248722457_1_alg».proof.Proof.K.Data

set_option maxRecDepth 16384

noncomputable section

namespace Cert.Kernel.Hand

open Cert.Kernel Cert.Kernel.Gen
open Idealize.ShloMosaic Idealize.ShloMosaic.TcCoe

variable {F : FTy → Type} [FloatOps F]

variable (m : (ℓ : Loc nD τ sig) → Buf (Elt F) ℓ)

/-- No operation of this stretch allocates a buffer. -/
theorem hostOps0_fresh : (hostOps0 : List (HloOp τ sig (Elt F))).Forall fun op => op.fresh = ∅ := by
  simp only [List.Forall]; repeat' constructor
/-- No operation of this stretch allocates a buffer. -/
theorem hostOps0_1_fresh : (hostOps0_1 : List (HloOp τ sig (Elt F))).Forall fun op => op.fresh = ∅ := by
  simp only [List.Forall]; repeat' constructor
/-- No operation of this stretch allocates a buffer. -/
theorem hostOps0_2_fresh : (hostOps0_2 : List (HloOp τ sig (Elt F))).Forall fun op => op.fresh = ∅ := by
  simp only [List.Forall]; repeat' constructor
/-- No operation of this stretch allocates a buffer. -/
theorem hostOps0_3_fresh : (hostOps0_3 : List (HloOp τ sig (Elt F))).Forall fun op => op.fresh = ∅ := by
  simp only [List.Forall]; repeat' constructor
/-- No operation of this stretch allocates a buffer. -/
theorem hostOps0_4_fresh : (hostOps0_4 : List (HloOp τ sig (Elt F))).Forall fun op => op.fresh = ∅ := by
  simp only [List.Forall]; repeat' constructor

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil,
      List.cons_append, List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil,
      List.cons_append, List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil,
      List.cons_append, List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil,
      List.cons_append, List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil,
      List.cons_append, List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil,
      List.cons_append, List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

end Cert.Kernel.Hand

end
-- ==== Proof.K.Frame.lean ====
/-
  The frame claim of the decode program, at any float instance, read off its frame run: the six argument arrays are
  no window's array and no host operation before the region writes them, so they end as launched. And the same run
  with the two results named: the result array at what the write-backs leave, the embedding as the region found it
  (an input window's array is never written back).
-/
import proofs.«181304_j52699248722457_1_alg».proof.Proof.K.Run
import proofs.«181304_j52699248722457_1_alg».proof.Proof.K.HostArgs

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ) (ρ : Dev nD → PrngReg)

/-- What the frame run's post says of the argument arrays: each bypasses the region and no host operation writes it. -/
theorem args_of_post (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩

/-- THE FRAME: the program runs to the end, faults nowhere, and leaves its six arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => args_of_post m r h c) (run_main m ρ)

/-- The run with the results named: the result array at what the 128 write-backs leave of it, the embedding as the
    region found it, the arguments unchanged. -/
theorem run_results : θ_run defs (onTc (τ := τ) (main (F := F))) ⟨m, fun _ => 0, ρ⟩ (fun r => ∀ c : Dev nD,
      r.2.mem ((c.tc : Thread nD τ).loc main_v65) = (dats m 0 c).arrAt 2 cfg0.N
      ∧ r.2.mem ((c.tc : Thread nD τ).loc main_v64) = V m c main_v64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1 2, ((h c).1 0).trans (((dats m 0 c).arrAt_in 0 rfl _).trans (A_eq m c 0)),
    args_of_post m r h c⟩) (run_main m ρ)

end Cert.Kernel.Hand

end
-- ==== Proof.KI.Data.lean ====
/-
  The decode region's proof data, at any float instance.

  The region has three windows on a 16 × 8 grid: window 0 is the 1024-row block `i` of the embedding `z` (16384 × 32),
  window 1 the 2048-row block `j` of the SAME array, window 2 the 1024 × 2048 block `(i, j)` of the result. Its body
  loads the two input blocks whole and stores one value, a function of the two, over the whole output block; nothing is
  kept between points. So after the body at a point each input buffer still holds its block and the output buffer holds
  that function of the two blocks. The two input windows read one array: each holds half of its full share.
-/
import proofs.«181304_j52699248722457_1_alg».proof.Proof.Gen.KernelIdeal.Launch
import proofs.«181304_j52699248722457_1_alg».proof.Proof.Gen.KernelIdeal.Skeleton
import proofs.«181304_j52699248722457_1_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

variable (m : (ℓ : Loc nD τ sig) → Buf (Elt F) ℓ)

/-- Core `c`'s buffers when the region is entered: the launch contents after the five stretches of host operations
    that compute the embedding. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The body's three accesses: each the whole of its buffer. -/
abbrev r0_0 : Rect S1024x32 := Rect.unit (s := S1024x32) ![0, 0] S1024x32.size inb_S1024x32_S1024x32_0_0
abbrev r0_1 : Rect S2048x32 := Rect.unit (s := S2048x32) ![0, 0] S2048x32.size inb_S2048x32_S2048x32_0_0
abbrev r0_2 : Rect S1024x2048 := Rect.unit (s := S1024x2048) ![0, 0] S1024x2048.size inb_S1024x2048_S1024x2048_0_0

/-- The output buffer after the body, from the two input blocks: the one store's value over the whole buffer. -/
def out0_2 (x0 : Vec F S1024x32 .f32) (x1 : Vec F S2048x32 .f32) : Vec F S1024x2048 .f32 :=
  View.canon [⟨r0_2, k0_pay1 (View.ld x0 r0_0) (View.ld x1 r0_1)⟩]

/-- The one store covers the output buffer. -/
theorem cover0_2 (p0 : Vec F S1024x2048 .f32) (y : S1024x2048.Idx) :
    ∃ pc ∈ ([⟨r0_2, p0⟩] : List (View.Piece (Elt F) S1024x2048 .f32)), y ∈ pc.1.set :=
  View.cover_of_tiled [⟨r0_2, p0⟩] S1024x2048.size (by rfl) y

/-- The proof data on core `c`: the arrays as the region finds them; after the body each input buffer at its block, the
    output buffer at `out0_2` of the two blocks; the invariant the core's scoped buffers that are no staging buffer, untouched (the body names none);
    nothing owed; the two windows on the embedding hold the two halves of its full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

end Cert.KernelIdeal.Hand

end
-- ==== Proof.KI.Run.lean ====
/-
  The decode region's frame run, at any float instance.

  @main is five stretches of host operations and then the region. Up to the region the core's buffers go from the launch
  contents to `V`. At every grid point each input buffer holds its block of the embedding (fetched there or not: an
  unfetched block has the index it had at the point before), the body reads both and overwrites the whole output
  buffer, and the block is written back. The embedding's array is read by two windows: its full share is dealt to them
  as two halves when the region is entered. Every weakly fair execution therefore terminates with each windowed array
  at what the write-backs leave and every other unscoped buffer as the region found it.
-/
import proofs.«181304_j52699248722457_1_alg».proof.Proof.KI.Data
import Idealize.ShloMosaic.Lib.Pipeline.Kit
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- No host operation allocates a buffer. -/
theorem fresh0 : (hostOps0 : List (HloOp τ sig (Elt F))).Forall fun op => op.fresh = ∅ := by
  simp only [List.Forall]; repeat' constructor
theorem fresh0_1 : (hostOps0_1 : List (HloOp τ sig (Elt F))).Forall fun op => op.fresh = ∅ := by
  simp only [List.Forall]; repeat' constructor
theorem fresh0_2 : (hostOps0_2 : List (HloOp τ sig (Elt F))).Forall fun op => op.fresh = ∅ := by
  simp only [List.Forall]; repeat' constructor
theorem fresh0_3 : (hostOps0_3 : List (HloOp τ sig (Elt F))).Forall fun op => op.fresh = ∅ := by
  simp only [List.Forall]; repeat' constructor
theorem fresh0_4 : (hostOps0_4 : List (HloOp τ sig (Elt F))).Forall fun op => op.fresh = ∅ := by
  simp only [List.Forall]; repeat' constructor

/-- @main up to the region: the five stretches of host operations take the unscoped buffers from the launch contents
    to `V`, then comes the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨fresh0, fresh0_1, fresh0_2, fresh0_3, fresh0_4⟩) main_chain

/-! ## What the body finds in the input buffers -/

/-- Window 0's current buffer holds block `t / 8` of the embedding at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
/-- Window 1's current buffer holds block `t % 8` of the embedding at every point. -/
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)

/-! ## The body -/

set_option maxHeartbeats 1000000 in
/-- On whole buffers, the inputs' at contents `x0`, `x1` and the output's at anything, the body runs to the continuation
    holding the inputs' as they were and the output's at `out0_2 x0 x1`: it loads the three buffers and stores one
    value, a function of the first two loads, over the whole of the third. -/
theorem sound_kernel (c : Dev nD) (E : Set ℕ) (i : grid0.Coords)
    (arg2 : Memref sig .tc .vmem S1024x32 .f32) (harg2 : arg2.IsWhole) (arg3 : Memref sig .tc .vmem S2048x32 .f32) (harg3 : arg3.IsWhole)
    (arg4 : Memref sig .tc .vmem S1024x2048 .f32) (harg4 : arg4.IsWhole)
    (x0 : Vec F S1024x32 .f32) (x1 : Vec F S2048x32 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__decode_kernel i arg2 harg2 arg3 harg3 arg4 harg4) K := by
  simp only [cc0__decode_kernel_eq_skeleton]; unfold cc0__decode_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so `sound_kernel` applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation (c : Dev nD) : BodyObligation (dats (F := F) m 0 c) (defs₀ (F := F)) Variants.none () Set.univ := fun t => by
  rw [bigSep_W0, bigSep_W0]
  exact sound_body m c t

/-! ## The embedding's share, dealt to its two windows -/

/-- How the two arrays' full shares are dealt to the three windows: the embedding's left half to window 0, its right
    half to window 1, the result whole to window 2. -/
def deal : Fin cfg0.W → PosShare TreeShare := fun w => match w with
  | ⟨0, _⟩ => fullShare.left
  | ⟨1, _⟩ => fullShare.right
  | ⟨2, _⟩ => fullShare

/-- For any valuation `W` of the core's buffers and any proof data that holds the arrays at the shares `deal` and at
    `W`'s contents when the region is entered: the buffers behind the windows' arrays — the embedding and the result,
    each whole at the full share — are the proof data's arrays at entry. -/
theorem hsplit_of (c : Dev nD) (W : (b : Ref sig .tc) → Buf (Elt F) ((c.tc : Thread nD τ).loc b))
    (dat : Dat τ (Elt F) Unit ℕ (UR sig nD τ) ℕ cfg0 c) (hs : ∀ w, dat.share w = deal w)
    (hA : ∀ w, dat.arrAt w 0 = W (Pipeline.arrRef spec0 w)) :
    (Pipeline.arrBufs (Ix := Unit) (Name := ℕ) (U := UR sig nD τ) (Lvl := ℕ) spec0 c W : sProp 𝕄)
      ⊢ dat.arrays (dat.arrAt · 0) := by
  have harrays : dat.arrays (dat.arrAt · 0)
      = bigSep Finset.univ fun w : Fin cfg0.W => (((c.tc : Thread nD τ).loc (Pipeline.arrRef spec0 w)) ↦{deal w} W (Pipeline.arrRef spec0 w) : sProp 𝕄) := by
    unfold Dat.arrays
    exact bigSep_congr fun w _ => by rw [(arr_whole0 w).set_eq_univ, hs w]; beta_reduce; rw [hA w]
  rewrite [harrays]
  unfold Pipeline.arrBufs
  rewrite [bigSep_eq_bigSepL_of_eq [main_v64, main_v65] (by decide) (by decide), bigSep_W0]
  show iprop((((c.tc : Thread nD τ).loc main_v64) ↦{fullShare} W main_v64) ∗ (((c.tc : Thread nD τ).loc main_v65) ↦{fullShare} W main_v65))
    ⊢ iprop((((c.tc : Thread nD τ).loc main_v64) ↦{fullShare.left} W main_v64) ∗ (((c.tc : Thread nD τ).loc main_v64) ↦{fullShare.right} W main_v64)
        ∗ (((c.tc : Thread nD τ).loc main_v65) ↦{fullShare} W main_v65))
  iintro ⟨Hz, Hr⟩
  ihave Hz := (pointsTo_share (PosShare.mem_left_op_right fullShare)).1 $$ Hz
  icases Hz with ⟨Hz₁, Hz₂⟩
  isplitl [Hz₁]; · iexact Hz₁
  isplitl [Hz₂]; · iexact Hz₂
  iexact Hr

/-- The proof data holds the arrays at the shares `deal`. -/
theorem share_eq (c : Dev nD) (w : Fin cfg0.W) : (dats m 0 c).share w = deal w := by
  unfold Dat.share
  match w with
  | ⟨0, _⟩ => rw [if_neg (fun hh => Bool.false_ne_true hh)]; dsimp only [dats, deal]
  | ⟨1, _⟩ => rw [if_neg (fun hh => Bool.false_ne_true hh)]; dsimp only [dats, deal]
  | ⟨2, _⟩ => rw [if_pos rfl]; dsimp only [deal]

/-- The embedding's full share is dealt to its two windows when the region is entered. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) :=
  hsplit_of c (V m c) (dats m 0 c) (share_eq m c) (fun w => (show (dats m 0 c).arrAt w 0 = (dats m 0 c).A w from rfl).trans (A_eq m c w))

/-! ## The run -/

/-- The proof data's invariant is the same at every point: the scoped buffers that are no staging buffer. -/
theorem Φ_eq (c : Dev nD) (t : Fin (cfg0.N + 1)) :
    (dats m 0 c).Φ t = Pipeline.scopedRest (Ix := Unit) (Name := ℕ) (U := UR sig nD τ) (Lvl := ℕ) (Val := Elt F) spec0 c := by
  dsimp only [dats]

set_option maxHeartbeats 1000000 in
set_option backward.isDefEq.respectTransparency.types false in
/-- From any memory with zero counters every weakly fair execution of @main terminates, and every final state has each
    windowed array at what the write-backs leave of it (the embedding untouched, the result overwritten block by block)
    and every other unscoped buffer as the region found it. -/
theorem run_main : θ_run defs (onTc (τ := τ) (main (F := F))) (s₀ m ρ) (Pipeline.FramePost cfgs (dats m) 0 (V m)) := by
  classical
  exact Pipeline.θ_run_region_noSem_shared cfgs (dats m) () cellOf_inj (0 : Fin 1) winFacts₀0 emb₁ defs₀ Variants.none m ρ main
    (fun c => (body_obligation m c).loose) block_pos0 arr_whole0 stage_whole0 (fun _ _ => rfl)
    (initOf (Pipeline.cells cfgs cellOf_inj) (Pipeline.launchToks cfgs cellOf_inj)) .rfl
    (V m) (hmain m Variants.none) (hsplit m)
    (fun _ => iprop(emp)) (fun _ => iprop(emp))
    (fun c => Pipeline.unscopedRest (Ix := Unit) (Name := ℕ) (U := UR sig nD τ) (Lvl := ℕ) spec0 c (V m c))
    (fun c => by iintro H; isplitr; · iempintro
                 iexact H)
    (fun c => by rw [Φ_eq]; iintro ⟨-, H⟩; iexact H)
    (fun c => by rw [Φ_eq]; iintro H; isplitr; · iempintro
                 iexact H)
    (fun c s => ∀ b ∈ Pipeline.restRefs sig spec0, s.mem ((c.tc : Thread nD τ).loc b) = V m c b)
    (fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (fun s h c => ⟨(h c).1, (h c).2⟩)

end Cert.KernelIdeal.Hand

end
-- ==== Proof.KI.HostArgs.lean ====
/-
  The host operations that run before the decode region compute the embedding from the six argument arrays; none
  of them writes an argument array, so the region finds each argument as launched. Each operation's set of written
  buffers is the singleton of its result, and every result reference differs from every argument reference.
  Also: none of these operations allocates a buffer of unchosen contents.
-/
import proofs.«181304_j52699248722457_1_alg».proof.Proof.KI.Data

set_option maxRecDepth 16384

noncomputable section

namespace Cert.KernelIdeal.Hand

open Cert.KernelIdeal Cert.KernelIdeal.Gen
open Idealize.ShloMosaic Idealize.ShloMosaic.TcCoe

variable {F : FTy → Type} [FloatOps F]

variable (m : (ℓ : Loc nD τ sig) → Buf (Elt F) ℓ)

/-- No operation of this stretch allocates a buffer. -/
theorem hostOps0_fresh : (hostOps0 : List (HloOp τ sig (Elt F))).Forall fun op => op.fresh = ∅ := by
  simp only [List.Forall]; repeat' constructor
/-- No operation of this stretch allocates a buffer. -/
theorem hostOps0_1_fresh : (hostOps0_1 : List (HloOp τ sig (Elt F))).Forall fun op => op.fresh = ∅ := by
  simp only [List.Forall]; repeat' constructor
/-- No operation of this stretch allocates a buffer. -/
theorem hostOps0_2_fresh : (hostOps0_2 : List (HloOp τ sig (Elt F))).Forall fun op => op.fresh = ∅ := by
  simp only [List.Forall]; repeat' constructor
/-- No operation of this stretch allocates a buffer. -/
theorem hostOps0_3_fresh : (hostOps0_3 : List (HloOp τ sig (Elt F))).Forall fun op => op.fresh = ∅ := by
  simp only [List.Forall]; repeat' constructor
/-- No operation of this stretch allocates a buffer. -/
theorem hostOps0_4_fresh : (hostOps0_4 : List (HloOp τ sig (Elt F))).Forall fun op => op.fresh = ∅ := by
  simp only [List.Forall]; repeat' constructor

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil,
      List.cons_append, List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil,
      List.cons_append, List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil,
      List.cons_append, List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil,
      List.cons_append, List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil,
      List.cons_append, List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil,
      List.cons_append, List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

end Cert.KernelIdeal.Hand

end
-- ==== Proof.KI.Frame.lean ====
/-
  The frame claim of the decode program, at any float instance, read off its frame run: the six argument arrays are
  no window's array and no host operation before the region writes them, so they end as launched. And the same run
  with the two results named: the result array at what the write-backs leave, the embedding as the region found it
  (an input window's array is never written back).
-/
import proofs.«181304_j52699248722457_1_alg».proof.Proof.KI.Run
import proofs.«181304_j52699248722457_1_alg».proof.Proof.KI.HostArgs

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ) (ρ : Dev nD → PrngReg)

/-- What the frame run's post says of the argument arrays: each bypasses the region and no host operation writes it. -/
theorem args_of_post (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩

/-- THE FRAME: the program runs to the end, faults nowhere, and leaves its six arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => args_of_post m r h c) (run_main m ρ)

/-- The run with the results named: the result array at what the 128 write-backs leave of it, the embedding as the
    region found it, the arguments unchanged. -/
theorem run_results : θ_run defs (onTc (τ := τ) (main (F := F))) ⟨m, fun _ => 0, ρ⟩ (fun r => ∀ c : Dev nD,
      r.2.mem ((c.tc : Thread nD τ).loc main_v65) = (dats m 0 c).arrAt 2 cfg0.N
      ∧ r.2.mem ((c.tc : Thread nD τ).loc main_v64) = V m c main_v64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1 2, ((h c).1 0).trans (((dats m 0 c).arrAt_in 0 rfl _).trans (A_eq m c 0)),
    args_of_post m r h c⟩) (run_main m ρ)

end Cert.KernelIdeal.Hand

end
-- ==== Proof.Spec.lean ====
/-
  The decode of an embedding, as one function on the extended reals.

  For an embedding `z` of 16384 points in 32 coordinates, the adjacency score of the pair `(p, q)` is the
  logistic function of the inner product of row `p` with row `q` of `z`; the sum runs over the 32 coordinates
  in their natural order, row `p`'s entry being the left factor of every term.
-/
import Idealize.ShloMosaic.PureOps.Ideal.Laws
import Idealize.ShloMosaic.Lib.ValueIdx

noncomputable section

namespace Cert.Spec

open Idealize.ShloMosaic Idealize.ShloMosaic.ValueIdx
open scoped BigOperators

/-- The score of the pair `(p, q)`: the logistic function of the inner product of rows `p` and `q`. -/
def adjAt (z : FVec Ideal (⟨2, ![16384, 32]⟩ : Shape) .f32) (p q : Fin 16384) : EReal :=
  Ideal.logistic (∑ k : Fin 32, z (ix2 p k) * z (ix2 q k))

/-- The whole table of scores, indexed by the pair. -/
def adj (z : FVec Ideal (⟨2, ![16384, 32]⟩ : Shape) .f32) : FVec Ideal (⟨2, ![16384, 16384]⟩ : Shape) .f32 :=
  fun i => adjAt z ⟨(i 0).val, (i 0).isLt⟩ ⟨(i 1).val, (i 1).isLt⟩

/-- The table at an index given by its two coordinates. -/
theorem adj_ix2 (z : FVec Ideal (⟨2, ![16384, 32]⟩ : Shape) .f32) (p q : Fin 16384) :
    adj z (ix2 p q) = adjAt z p q := rfl

end Cert.Spec

end
-- ==== Proof.LibRowDot.lean ====
/-
  A matrix product whose right operand is contracted on its last axis, read at an index on the extended reals.

  For an `M×K` by `N×K` contraction (left axis 1 against right axis 1, no batch axis) the element at `(r, c)` of
  a matrix-unit product into a zero accumulator is the sum over `k : Fin K` of `l (r, k) * w (c, k)`: a row of the
  left operand against a ROW of the right operand. The contraction's one-axis index type is re-indexed by its
  single coordinate.
-/
import Idealize.ShloMosaic.PureOps.Ideal.Laws
import Idealize.ShloMosaic.Lib.ValueIdx

noncomputable section

namespace Cert.RowDot

open Idealize.ShloMosaic Idealize.ShloMosaic.ValueIdx

/-- The contraction sum of an `M×K` by `N×K` product (right operand contracted on its last axis) at output
    index `j`, over `Fin K`. -/
theorem contr_sum (M K N : Nat) (l : (⟨2, ![M, K]⟩ : Shape).Idx → EReal) (w : (⟨2, ![N, K]⟩ : Shape).Idx → EReal)
    (j : (⟨2, ![M, N]⟩ : Shape).Idx) :
    (∑ q : (DotDims.transposedRhs M K N).contr.Idx,
        l ((DotDims.transposedRhs M K N).lhsIdx j q) * w ((DotDims.transposedRhs M K N).rhsIdx j q))
      = ∑ k : Fin K, l (ix2 (j 0) k) * w (ix2 (j 1) k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx j ((contrEquiv1 (DotDims.transposedRhs M K N) K rfl rfl).symm k)
      = ix2 (j 0) k :=
    funext fun a => Fin.ext (by
      match a with
      | ⟨0, _⟩ => rfl
      | ⟨1, _⟩ => exact hk)
  have er : (DotDims.transposedRhs M K N).rhsIdx j ((contrEquiv1 (DotDims.transposedRhs M K N) K rfl rfl).symm k)
      = ix2 (j 1) k :=
    funext fun a => Fin.ext (by
      match a with
      | ⟨0, _⟩ => rfl
      | ⟨1, _⟩ => exact hk)
  rw [el, er]
  rfl

/-- A matrix-unit product of a left operand against the rows of the right operand, into the zero accumulator,
    at an index. -/
theorem matmul_zero_apply (M K N : Nat) {φ₁ φ₂ : FTy} (prec : Option ContractPrecision)
    (l : FVec Ideal (⟨2, ![M, K]⟩ : Shape) φ₁) (w : FVec Ideal (⟨2, ![N, K]⟩ : Shape) φ₂) (j : (⟨2, ![M, N]⟩ : Shape).Idx) :
    FloatOps.matmul (DotDims.transposedRhs M K N) prec l w (constant (⟨2, ![M, N]⟩ : Shape) .f32 0x00000000#32) j
      = ∑ k : Fin K, l (ix2 (j 0) k) * w (ix2 (j 1) k) :=
  (Ideal.matmul_constant_zero_apply (DotDims.transposedRhs M K N) prec l w j).trans (contr_sum M K N l w j)

end Cert.RowDot

end
-- ==== Proof.KI.Pay.lean ====
/-
  The decode kernel's payload at an index, on the extended reals.

  The body takes a block of 1024 rows and a block of 2048 rows of the embedding (32 coordinates each), converts both
  to the shorter format (the identity on the extended reals), contracts the rows of the first against the rows of
  the second over the 32 coordinates into a zero accumulator, and applies the logistic function lane by lane. At
  the index `(p, q)` of the result this is the logistic function of the inner product of row `p` of the first
  block with row `q` of the second.
-/
import proofs.«181304_j52699248722457_1_alg».proof.Proof.Spec
import proofs.«181304_j52699248722457_1_alg».proof.Proof.LibRowDot
import proofs.«181304_j52699248722457_1_alg».proof.Proof.Gen.KernelIdeal.Skeleton
import Idealize.ShloMosaic.Lib.ValueIdx
import Idealize.ShloMosaic.Lib.Pipeline.Value

noncomputable section

namespace Cert.KernelIdeal.Pay

open Cert.KernelIdeal Cert.KernelIdeal.Gen
open Idealize.ShloMosaic Idealize.ShloMosaic.ValueIdx
open scoped BigOperators

/-- The payload is the logistic function, lane by lane, of the row-by-row product of the two blocks into the zero
    accumulator: the same-shape casts and the conversions to the shorter format are identities. -/
theorem v_pay_eq (x0 : Vec Ideal S1024x32 .f32) (x3 : Vec Ideal S2048x32 .f32) :
    Gen.k0_pay1 (F := Ideal) x0 x3
      = fun j => Ideal.logistic (FloatOps.matmul (F := Ideal) (DotDims.transposedRhs 1024 32 2048) none
          (φ₁ := .bf16) (φ₂ := .bf16) x0 x3 (constant (F := Ideal) (⟨2, ![1024, 2048]⟩ : Shape) .f32 0x00000000#32) j) := by
  unfold Gen.k0_pay1
  rw [shapeCast_self x0, shapeCast_self x3]
  rfl

/-- The payload at the index `(p, q)`: the logistic function of the inner product of row `p` of the first block
    with row `q` of the second. -/
theorem pay_at (x0 : Vec Ideal S1024x32 .f32) (x3 : Vec Ideal S2048x32 .f32) (p : Fin 1024) (q : Fin 2048) :
    Gen.k0_pay1 (F := Ideal) x0 x3 (ix2 p q)
      = Ideal.logistic (∑ k : Fin 32, x0 (ix2 p k) * x3 (ix2 q k)) := by
  rw [v_pay_eq x0 x3]
  exact congrArg Ideal.logistic
    (Cert.RowDot.matmul_zero_apply 1024 32 2048 (φ₁ := .bf16) (φ₂ := .bf16) none x0 x3 (ix2 p q))

end Cert.KernelIdeal.Pay

end
-- ==== Proof.KI.Value.lean ====
/-
  The decode region's result array, on the extended reals: the decode of the embedding the region found.

  The region's 128 points tile the 16384 × 16384 result by blocks of 1024 × 2048: point `t` writes the block whose
  row block is `t / 8` and whose column block is `t % 8`, and it reads rows `1024 (t / 8) …` and rows `2048 (t % 8) …`
  of the embedding. So what a point writes back is its block of one function of the embedding, the table of scores,
  and since the blocks cover the array the array ends holding that table.
-/
import proofs.«181304_j52699248722457_1_alg».proof.Proof.KI.Data
import proofs.«181304_j52699248722457_1_alg».proof.Proof.KI.Pay
import proofs.«181304_j52699248722457_1_alg».proof.Proof.Spec
import Idealize.ShloMosaic.Lib.Pipeline.Value

set_option maxRecDepth 16384

noncomputable section

namespace Cert.KernelIdeal.HandValue

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ)

theorem v_hz : (![0, 0] : Fin 2 → Nat) = fun _ => 0 := funext fun a => by fin_cases a <;> rfl

/-- The printed index maps, decided over the grid: point `t` is row block `t / 8`, column block `t % 8`. -/
theorem v_idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = t.val % 8 :=
  (by decide +kernel : ∀ t : Fin grid0.N, _)

/-- The payload at an index of its block is the table of scores at an index of the array, when the first block is
    rows `1024 bi …` of the embedding, the second rows `2048 bj …`, and the array index is the block index moved by
    the block's offsets. -/
theorem v_at (z : FVec Ideal S16384x32 .f32) (x0 : Vec Ideal S1024x32 .f32) (x1 : Vec Ideal S2048x32 .f32) (bi bj : Nat)
    (h0 : ∀ (x : S1024x32.Idx) (k : S16384x32.Idx), (k 0).val = 1024 * bi + (x 0).val → (k 1).val = (x 1).val → x0 x = z k)
    (h1 : ∀ (x : S2048x32.Idx) (k : S16384x32.Idx), (k 0).val = 2048 * bj + (x 0).val → (k 1).val = (x 1).val → x1 x = z k)
    (y : S1024x2048.Idx) (I : S16384x16384.Idx)
    (hI0 : (I 0).val = 1024 * bi + (y 0).val) (hI1 : (I 1).val = 2048 * bj + (y 1).val) :
    Gen.k0_pay1 (F := Ideal) x0 x1 y = Cert.Spec.adj z I := by
  obtain ⟨p, q, rfl⟩ : ∃ p q, y = ix2 p q := ⟨y 0, y 1, eq_ix2 y⟩
  rw [Pay.pay_at]
  show _ = Cert.Spec.adjAt z ⟨(I 0).val, (I 0).isLt⟩ ⟨(I 1).val, (I 1).isLt⟩
  unfold Cert.Spec.adjAt
  refine congrArg Ideal.logistic (Finset.sum_congr rfl fun k _ => ?_)
  rw [h0 (ix2 p k) (ix2 ⟨(I 0).val, (I 0).isLt⟩ k) hI0 rfl, h1 (ix2 q k) (ix2 ⟨(I 1).val, (I 1).isLt⟩ k) hI1 rfl]

/-- The first window's block at point `t` is rows `1024 (t / 8) …` of the array it is read off. -/
theorem v_blk0 (z : S16384x32.Idx → Elt Ideal .f32) (t : Fin cfg0.N) (x : S1024x32.Idx) (k : S16384x32.Idx)
    (hk0 : (k 0).val = 1024 * (t.val / 8) + (x 0).val) (hk1 : (k 1).val = (x 1).val) :
    (((cfg0.win 0).blk t).view.read (Elt Ideal) z : Vec Ideal S1024x32 .f32) x = z k := by
  obtain ⟨e0, e1, -⟩ := v_idx_facts t
  rw [View.read_apply]
  show z _ = z k
  refine congrArg z (funext fun a => Fin.ext ?_)
  match a with
  | ⟨0, _⟩ => show win0_0.index t (0 : Fin 2) * 1024 + 1 * (x 0).val = (k 0).val; rw [e0, hk0]; omega
  | ⟨1, _⟩ => show win0_0.index t (1 : Fin 2) * 32 + 1 * (x 1).val = (k 1).val; rw [e1, hk1]; omega

/-- The second window's block at point `t` is rows `2048 (t % 8) …` of the array it is read off. -/
theorem v_blk1 (z : S16384x32.Idx → Elt Ideal .f32) (t : Fin cfg0.N) (x : S2048x32.Idx) (k : S16384x32.Idx)
    (hk0 : (k 0).val = 2048 * (t.val % 8) + (x 0).val) (hk1 : (k 1).val = (x 1).val) :
    (((cfg0.win 1).blk t).view.read (Elt Ideal) z : Vec Ideal S2048x32 .f32) x = z k := by
  obtain ⟨-, -, e2, e3, -⟩ := v_idx_facts t
  rw [View.read_apply]
  show z _ = z k
  refine congrArg z (funext fun a => Fin.ext ?_)
  match a with
  | ⟨0, _⟩ => show win0_1.index t (0 : Fin 2) * 2048 + 1 * (x 0).val = (k 0).val; rw [e2, hk0]; omega
  | ⟨1, _⟩ => show win0_1.index t (1 : Fin 2) * 32 + 1 * (x 1).val = (k 1).val; rw [e3, hk1]; omega

/-- WHAT POINT `t` WRITES BACK is block `t` of the table of scores of the embedding the region found. -/
theorem flushed_eq (c : Dev nD) (t : Fin cfg0.N) :
    (Hand.dats m 0 c).flushed 2 t
      = ((cfg0.win 2).blk t).view.read (Elt Ideal) (Cert.Spec.adj (Hand.V m c main_v64)) := by
  show (cfg0.win 2).cut (grid0.coords t) ((Hand.dats m 0 c).after 2 t) = _
  rw [Hand.after0_2]
  unfold Hand.out0_2
  rw [View.canon_unit_zero v_hz]
  rw [View.ld_unit_zero (S := S1024x32) v_hz, View.ld_unit_zero (S := S2048x32) v_hz]
  obtain ⟨-, -, -, -, e4, e5⟩ := v_idx_facts t
  funext y
  rw [View.read_apply]
  refine Eq.trans ?_ (cast_eq _ _).symm
  show Gen.k0_pay1 (F := Ideal) (Hand.iblk m c 0 t) (Hand.iblk m c 1 t) ((cfg0.win 2).xinj (grid0.coords t) y) = _
  exact v_at (Hand.V m c main_v64) (Hand.iblk m c 0 t) (Hand.iblk m c 1 t) (t.val / 8) (t.val % 8)
    (fun x k a b => v_blk0 (Hand.V m c main_v64) t x k a b)
    (fun x k a b => v_blk1 (Hand.V m c main_v64) t x k a b)
    ((cfg0.win 2).xinj (grid0.coords t) y) (((cfg0.win 2).blk t).view.emb y)
    (by show win0_2.index t (0 : Fin 2) * 1024 + 1 * (y 0).val = 1024 * (t.val / 8) + (y 0).val; rw [e4]; omega)
    (by show win0_2.index t (1 : Fin 2) * 2048 + 1 * (y 1).val = 2048 * (t.val % 8) + (y 1).val; rw [e5]; omega)

/-- An index of the array is in point `t`'s block iff each coordinate is in the block's range on its axis. -/
theorem v_mem_blk (t : Fin cfg0.N) (i : S16384x16384.Idx) :
    i ∈ ((cfg0.win 2).blk t).view.set ↔ ∀ a : Fin 2, win0_2.index t a * S1024x2048.size a ≤ (i a).val
      ∧ (i a).val < win0_2.index t a * S1024x2048.size a + S1024x2048.size a := by
  show i ∈ ((View.whole main_v65).slice (win0_2.rect t)).set ↔ _
  rw [View.set_slice_whole, Rect.mem_set_unit]
  exact Iff.rfl

/-- Every index of the array is in the block of the point of its row block and column block. -/
theorem v_cover (i : S16384x16384.Idx) :
    ∃ t : Fin cfg0.N, (cfg0.win 2).flush t = true ∧ i ∈ ((cfg0.win 2).blk t).view.set := by
  have hi0 : (i 0).val < 16384 := (i 0).isLt
  have hi1 : (i 1).val < 16384 := (i 1).isLt
  have hN : (128 : Nat) = cfg0.N := Gen.N_0.symm
  have ht : 8 * ((i 0).val / 1024) + (i 1).val / 2048 < 128 := by omega
  obtain ⟨-, -, -, -, e4, e5⟩ := v_idx_facts ⟨8 * ((i 0).val / 1024) + (i 1).val / 2048, lt_of_lt_of_eq ht hN⟩
  refine ⟨⟨8 * ((i 0).val / 1024) + (i 1).val / 2048, lt_of_lt_of_eq ht hN⟩, Gen.flush0_2 _, ?_⟩
  rw [v_mem_blk]
  intro a
  match a with
  | ⟨0, _⟩ =>
    show win0_2.index _ (0 : Fin 2) * 1024 ≤ (i 0).val ∧ (i 0).val < win0_2.index _ (0 : Fin 2) * 1024 + 1024
    rw [e4]
    show (8 * ((i 0).val / 1024) + (i 1).val / 2048) / 8 * 1024 ≤ (i 0).val
      ∧ (i 0).val < (8 * ((i 0).val / 1024) + (i 1).val / 2048) / 8 * 1024 + 1024
    omega
  | ⟨1, _⟩ =>
    show win0_2.index _ (1 : Fin 2) * 2048 ≤ (i 1).val ∧ (i 1).val < win0_2.index _ (1 : Fin 2) * 2048 + 2048
    rw [e5]
    show (8 * ((i 0).val / 1024) + (i 1).val / 2048) % 8 * 2048 ≤ (i 1).val
      ∧ (i 1).val < (8 * ((i 0).val / 1024) + (i 1).val / 2048) % 8 * 2048 + 2048
    omega

/-- THE ARRAY after the region: the table of scores of the embedding the region found. -/
theorem final (c : Dev nD) :
    (Hand.dats m 0 c).arrAt 2 cfg0.N = (Cert.Spec.adj (Hand.V m c main_v64) : FVec Ideal S16384x16384 .f32) :=
  (Hand.dats m 0 c).arrAt_eq_of_cover 2 (Cert.Spec.adj (Hand.V m c main_v64)) (fun t _ => flushed_eq m c t) v_cover

end Cert.KernelIdeal.HandValue

end
-- ==== Proof.RefAdj.lean ====
/-
  The reference's last nine operations, read as one function of the embedding.

  After the embedding `z` (the 65th value of the reference) the reference transposes `z`, contracts `z` against
  the transpose over the 32 coordinates, negates, exponentiates, adds one and divides one by the result. At an
  index `(p, q)` the contraction is the inner product of rows `p` and `q` of `z` (the transpose only renames
  the index of the right factor), and `1 / (1 + exp (-s))` is the logistic function of `s` on the extended
  reals by definition; the two constants are the pattern of the real number one.
-/
import proofs.«181304_j52699248722457_1_alg».proof.Proof.Spec
import proofs.«181304_j52699248722457_1_alg».proof.Proof.RefRead

noncomputable section

namespace Cert.ReferenceIdeal.RefAdj

open Cert.ReferenceIdeal Cert.ReferenceIdeal.Gen Cert.ReferenceIdeal.ReadP
open Idealize.ShloMosaic Idealize.ShloMosaic.ValueIdx
open scoped BigOperators

/-- The single-precision pattern `0x3F800000` denotes the real number one. -/
theorem v_one : FloatOps.ofBits (F := Ideal) .f32 0x3F800000#32 = (1 : EReal) := by
  show Ideal.ofBits .f32 0x3F800000#32 = 1
  simp [Ideal.ofBits, Ideal.ieee, -EReal.coe_mul]; norm_num

/-- One divided by one plus the exponential of the negation is the logistic function. -/
theorem v_logistic (s : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf s)))
      = Ideal.logistic s := by
  rw [v_one]
  rfl

/-- The left factor's index of the contraction is row `i 0`, coordinate `k`. -/
theorem v_lidx (i : S16384x16384.Idx) (k : Fin 32) :
    lidx_main_v66 i k = ix2 (⟨(i 0).val, (i 0).isLt⟩ : Fin 16384) k :=
  funext fun a => Fin.ext (by
    match a with
    | ⟨0, _⟩ => rfl
    | ⟨1, _⟩ => rfl)

/-- The right factor's index, through the transpose, is row `i 1`, coordinate `k`. -/
theorem v_ridx (i : S16384x16384.Idx) (k : Fin 32) :
    idx_main_v65 (ridx_main_v66 i k) = ix2 (⟨(i 1).val, (i 1).isLt⟩ : Fin 16384) k :=
  funext fun a => Fin.ext (by
    match a with
    | ⟨0, _⟩ => rfl
    | ⟨1, _⟩ => rfl)

/-- The contraction at an index, over any embedding: the inner product of two of its rows. -/
theorem v_sum (z : S16384x32.Idx → EReal) (i : S16384x16384.Idx) :
    (∑ k : Fin 32, z (lidx_main_v66 i k) * z (idx_main_v65 (ridx_main_v66 i k)))
      = ∑ k : Fin 32, z (ix2 (⟨(i 0).val, (i 0).isLt⟩ : Fin 16384) k) * z (ix2 (⟨(i 1).val, (i 1).isLt⟩ : Fin 16384) k) :=
  Finset.sum_congr rfl fun k _ => by rw [v_lidx i k, v_ridx i k]

/-- The reference's result is the decode of the reference's embedding. -/
theorem ref_adj (x0 : (⟨S16384x512, .f32⟩ : BufTy).Contents (Elt Ideal)) (x1 : (⟨S2x524288, .i32⟩ : BufTy).Contents (Elt Ideal))
    (x2 : (⟨S512x64, .f32⟩ : BufTy).Contents (Elt Ideal)) (x3 : (⟨S64, .f32⟩ : BufTy).Contents (Elt Ideal))
    (x4 : (⟨S64x32, .f32⟩ : BufTy).Contents (Elt Ideal)) (x5 : (⟨S32, .f32⟩ : BufTy).Contents (Elt Ideal)) :
    Cert.ReferenceIdeal.ReadP.val_main_v72 (F := Ideal) x0 x1 x2 x3 x4 x5
      = Cert.Spec.adj (Cert.ReferenceIdeal.ReadP.val_main_v64 (F := Ideal) x0 x1 x2 x3 x4 x5) := by
  funext i
  rw [val_main_v72_apply, val_main_v71_apply, val_main_cst_13_apply, val_main_v70_apply, val_main_v69_apply,
    val_main_cst_12_apply, val_main_v68_apply, val_main_v67_apply, val_main_v66_apply]
  have hs : (∑ k : Fin 32, (val_main_v64 (F := Ideal) x0 x1 x2 x3 x4 x5) (lidx_main_v66 i k)
        * (val_main_v65 (F := Ideal) x0 x1 x2 x3 x4 x5) (ridx_main_v66 i k))
      = ∑ k : Fin 32, (val_main_v64 (F := Ideal) x0 x1 x2 x3 x4 x5) (lidx_main_v66 i k)
        * (val_main_v64 (F := Ideal) x0 x1 x2 x3 x4 x5) (idx_main_v65 (ridx_main_v66 i k)) :=
    Finset.sum_congr rfl fun k _ => by rw [val_main_v65_apply]
  rw [hs]
  generalize val_main_v64 (F := Ideal) x0 x1 x2 x3 x4 x5 = z
  rw [v_sum z i, v_logistic]
  rfl

end Cert.ReferenceIdeal.RefAdj

end
-- ==== Proof.ZBridge.lean ====
/-
  The embedding the decode region reads is the reference's embedding of the same arguments.

  Before the region the kernel program runs 83 host operations in five stretches (the message passing: two index
  concatenations, degree normalisation by a scatter-add and a reciprocal square root, two rounds of dense product,
  gather, scaling, scatter-add and bias, the first followed by a rectifier). The reference program begins with the same
  operations in the same order, and its stage `val_main_v64` is their composition as a function of the six argument
  arrays. Reading the kernel program's fold at the embedding's buffer, operation by operation, gives the same
  composition applied to the launch contents of the six arguments: each operation's result buffer holds its function of
  its operands' contents, and every other buffer is left as it was. The two compositions then agree term by term; the
  two programs' shapes are equal, and their operation records differ only in a proof field. The statement holds for any
  float values, and is instantiated at the ideal ones.
-/
import proofs.«181304_j52699248722457_1_alg».proof.Proof.KI.Data
import proofs.«181304_j52699248722457_1_alg».proof.Proof.RefRead

set_option maxRecDepth 16384

noncomputable section

namespace Cert.KernelIdeal.ZBridge

open Idealize.ShloMosaic Idealize.ShloMosaic.TcCoe Idealize.ShloMosaic.StableHlo Idealize.SL.Sem
open Cert.KernelIdeal Cert.KernelIdeal.Gen

set_option maxHeartbeats 4000000 in
/-- At any float values: what the embedding's buffer holds when the region is entered is the reference's stage of the
    launch contents of the six arguments. -/
theorem z_eq_gen {F : FTy → Type} [FloatOps F] (m : (ℓ : Loc nD τ sig) → Buf (Elt F) ℓ) (c : Dev nD) :
    @Eq ((⟨S16384x32, .f32⟩ : BufTy).Contents (Elt F)) (Cert.KernelIdeal.Hand.V m c main_v64)
      (Cert.ReferenceIdeal.ReadP.val_main_v64 (F := F) (m ((c.tc : Thread nD τ).loc main_arg0))
        (m ((c.tc : Thread nD τ).loc main_arg1)) (m ((c.tc : Thread nD τ).loc main_arg2))
        (m ((c.tc : Thread nD τ).loc main_arg3)) (m ((c.tc : Thread nD τ).loc main_arg4))
        (m ((c.tc : Thread nD τ).loc main_arg5))) := by
  dsimp only [Hand.V]
  simp only [hostOps0, hostOps0_1, hostOps0_2, hostOps0_3, hostOps0_4, List.flatten_cons, List.flatten_nil, List.append_nil,
    List.cons_append, List.nil_append]
  after_results_simp
  rfl

/-- At the ideal values. -/
theorem z_eq (m : (ℓ : Loc Cert.KernelIdeal.nD Cert.KernelIdeal.τ Cert.KernelIdeal.sig) → Buf (Elt Ideal) ℓ)
    (c : Dev Cert.KernelIdeal.nD) :
    @Eq (FVec Ideal Cert.KernelIdeal.S16384x32 .f32) (Cert.KernelIdeal.Hand.V m c Cert.KernelIdeal.main_v64)
      (Cert.ReferenceIdeal.ReadP.val_main_v64 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))) :=
  z_eq_gen (F := Ideal) m c

end Cert.KernelIdeal.ZBridge

end
-- ==== Proof.lean ====
/-
  The certificate of the graph autoencoder's decode kernel against its reference.

  Both programs compute the embedding `z` (16384 × 32) by the same eighty-three host operations — two rounds of normalised
  message passing over the edge list — and return `z` together with `sigmoid (z · zᵀ)` (16384 × 16384). The kernel
  computes the second result block by block on a 16 × 8 grid: block `(i, j)` is the logistic function of the product of
  rows `1024 i …` of `z` with rows `2048 j …` of `z`, contracted over the 32 columns, the blocks rounded to bf16 on the
  way into the matrix unit. The reference transposes `z`, multiplies, and spells the logistic function as
  `1 / (1 + exp (-s))`. Over the extended reals the rounding is the identity and the logistic function IS that
  expression, so at every index both results are `logistic (∑ k, z (p, k) · z (q, k))`: the same sum, term by term, of
  the same embedding. No law of arithmetic is used and the inputs' finiteness is never opened.

  The kernel's frame is proved by hand (its two input windows read one array, whose full share is dealt to them as two
  halves): Proof/KI/Run.lean, and Proof/K/Run.lean for the word-level program. The idealization rewrote nothing.
-/
import proofs.«181304_j52699248722457_1_alg».proof.Defs
import proofs.«181304_j52699248722457_1_alg».proof.Proof.Gen.Kernel
import proofs.«181304_j52699248722457_1_alg».proof.Proof.Gen.KernelIdeal
import proofs.«181304_j52699248722457_1_alg».proof.Proof.Gen.ReferenceIdeal
import proofs.«181304_j52699248722457_1_alg».proof.Proof.Gen.Pre_finite_inputs
import proofs.«181304_j52699248722457_1_alg».proof.Proof.K.Frame
import proofs.«181304_j52699248722457_1_alg».proof.Proof.KI.Frame
import proofs.«181304_j52699248722457_1_alg».proof.Proof.KI.Value
import proofs.«181304_j52699248722457_1_alg».proof.Proof.RefRead
import proofs.«181304_j52699248722457_1_alg».proof.Proof.RefAdj
import proofs.«181304_j52699248722457_1_alg».proof.Proof.ZBridge
import Idealize.ShloMosaic.Adequacy
import Idealize.ShloMosaic.Init

noncomputable section

namespace Cert.Proof

open Idealize.ShloMosaic Idealize.SL.Sem

/-- The word-level kernel runs to the end and leaves its arguments unchanged. -/
theorem frame_k : Cert.frame_Kernel (hKernel := Cert.Kernel.Gen.facts) (hPre_finite_inputs := Cert.Pre_finite_inputs.Gen.facts) :=
  fun m ρ _ => Cert.Kernel.Hand.frame m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference is host operations only: its run, the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.ValueP.run (F := Ideal) m ρ)

/-- Over the extended reals the kernel's result array is the decode of the embedding the region found, which is the
    reference's embedding of the same arguments, and the reference's result is the decode of its embedding. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  -- the reference's embedding of its arguments is the embedding the kernel's region finds
  have hz : ∀ c : Dev Cert.KernelIdeal.nD,
      Cert.ReferenceIdeal.ReadP.val_main_v64 (F := Ideal) (m' ((c.tc : Thread _ _).loc Cert.ReferenceIdeal.main_arg0))
        (m' ((c.tc : Thread _ _).loc Cert.ReferenceIdeal.main_arg1)) (m' ((c.tc : Thread _ _).loc Cert.ReferenceIdeal.main_arg2))
        (m' ((c.tc : Thread _ _).loc Cert.ReferenceIdeal.main_arg3)) (m' ((c.tc : Thread _ _).loc Cert.ReferenceIdeal.main_arg4))
        (m' ((c.tc : Thread _ _).loc Cert.ReferenceIdeal.main_arg5))
      = Cert.KernelIdeal.Hand.V m c Cert.KernelIdeal.main_v64 := fun c => by
    rw [(hagree c).1, (hagree c).2.1, (hagree c).2.2.1, (hagree c).2.2.2.1, (hagree c).2.2.2.2.1, (hagree c).2.2.2.2.2]
    exact (Cert.KernelIdeal.ZBridge.z_eq m c).symm
  refine ⟨fun c => Cert.Spec.adj (Cert.KernelIdeal.Hand.V m c Cert.KernelIdeal.main_v64), fun c => Cert.KernelIdeal.Hand.V m c Cert.KernelIdeal.main_v64, ?_, ?_⟩
  · exact (θ_run Cert.KernelIdeal.defs _ _).mono
      (fun _ h c => ⟨(h c).1.trans (Cert.KernelIdeal.HandValue.final m c), (h c).2⟩) (Cert.KernelIdeal.Hand.run_results m ρ)
  · exact (θ_run Cert.ReferenceIdeal.defs _ _).mono
      (fun _ h c => ⟨(h c).1.trans (((Cert.ReferenceIdeal.ReadP.val_main_v72_eq m' c).trans (Cert.ReferenceIdeal.RefAdj.ref_adj _ _ _ _ _ _)).trans
          (congrArg Cert.Spec.adj (hz c))),
        (h c).2.1.trans ((Cert.ReferenceIdeal.ReadP.val_main_v64_eq m' c).trans (hz c)), (h c).2.2⟩)
      (Cert.ReferenceIdeal.ValueP.run (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
